-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000 : Shape := ⟨2, ![64, 100000]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel

variable [Facts]

def fn {F : FTy → Type} [FloatOps F] (main_arg0 : FVec F S64x100000 .f32) (main_arg1 : FVec F S64x100000 .f32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S64x100000 .f32 := Host.absf main_arg1
  let main_cst_0 : FVec F S_ .f32 := constant S_ .f32 0x7F800000#32
  let main_v5 : FVec F S64x100000 .f32 := broadcastInDim S64x100000 ![] bcast_S_S64x100000 main_cst_0
  let main_v6 : IVec S64x100000 1 := cmpf .olt main_v4 main_v5
  let main_c_1 : IVec S_ 1 := constantI S_ 1 1#1
  let main_v7 : IVec S_ 1 := (fun x v => Host.reduce IntOp.andi x v reducesTo_S64x100000_S_d0_1 h_S_) main_v6 main_c_1
  let main_v8 : IVec S_ 1 := andi main_v3 main_v7
  main_v8
-- ==== Kernel.lean ====
abbrev S64x100000 : Shape := ⟨2, ![64, 100000]⟩
abbrev S8x100000 : Shape := ⟨2, ![8, 100000]⟩
abbrev S16x100000 : Shape := ⟨2, ![16, 100000]⟩
abbrev S8 : Shape := ⟨1, ![8]⟩
abbrev S8x1 : Shape := ⟨2, ![8, 1]⟩

abbrev nBuf : Space → Nat
  | .hbm => 3
  | .vmem => 10
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S8x100000, .f32⟩
  | .local _ .vmem, ⟨7, _⟩ => ⟨S8x100000, .f32⟩
  | .local _ .vmem, ⟨8, _⟩ => ⟨S16x100000, .f32⟩
  | .local _ .vmem, ⟨9, _⟩ => ⟨S16x100000, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x100000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  reduces_S8x100000_S8 : S8x100000.Reduces [1] S8
  shapeCasts_S8_S8x1 : S8.ShapeCasts S8x1
  broadcasts_S8x1_S8x100000 : S8x1.Broadcasts S8x100000
  inb_S16x100000_S8x100000_0_0 : ∀ a, (![0, 0] : Fin 2 → Nat) a + S8x100000.size a ≤ S16x100000.size a
  inb_S16x100000_S8x100000_8_0 : ∀ a, (![8, 0] : Fin 2 → Nat) a + S8x100000.size a ≤ S16x100000.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S64x100000.size a
  hwx0_0 : ∀ i : grid0.Coords, EltTy.bits .f32 = 32 ∨ (Rect.block (s := S64x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S64x100000.size a
  hwx0_1 : ∀ i : grid0.Coords, EltTy.bits .f32 = 32 ∨ (Rect.block (s := S64x100000) S8x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S64x100000.size a
  hwx0_2 : ∀ i : grid0.Coords, EltTy.bits .f32 = 32 ∨ (Rect.block (s := S64x100000) S8x100000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x100000.size a ≤ S64x100000.size a
  hwx0_3 : ∀ i : grid0.Coords, EltTy.bits .f32 = 32 ∨ (Rect.block (s := S64x100000) S8x100000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x100000.size a ≤ S64x100000.size a
  hwx0_4 : ∀ i : grid0.Coords, EltTy.bits .f32 = 32 ∨ (Rect.block (s := S64x100000) S16x100000.size (cc0_transform_4 i) (hinb0_4 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x100000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x100000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x100000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x100000 : Shape := ⟨2, ![64, 100000]⟩
abbrev S_ : Shape := ⟨0, ![]⟩
abbrev S64 : Shape := ⟨1, ![64]⟩
abbrev S64x1 : Shape := ⟨2, ![64, 1]⟩

abbrev nBuf : Space → Nat
  | .hbm => 20
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64x100000, .f32⟩
  | .hbm, ⟨3, _⟩ => ⟨S_, .f32⟩
  | .hbm, ⟨4, _⟩ => ⟨S64x100000, .f32⟩
  | .hbm, ⟨5, _⟩ => ⟨S64x100000, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x100000, .f32⟩
  | .hbm, ⟨13, _⟩ => ⟨S64x100000, .f32⟩
  | .hbm, ⟨14, _⟩ => ⟨S64x100000, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x100000, .f32⟩
  | .hbm, ⟨19, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S64x100000 : S_.BroadcastsInDim S64x100000 (![] : Fin 0 → Fin S64x100000.rank)
  reducesTo_S64x100000_S64_d1 : S64x100000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)

variable [Facts₀]

class Facts : Prop extends Facts₀ where

variable [Facts]
-- ==== Proof.KFrame.lean ====
/-
  THE KERNEL'S RUN, POINT BY POINT.

  The kernel walks a grid of four points. At point t it is handed four blocks of eight rows each: rows 16t..16t+7 of
  the first argument and of the second, and rows 16t+8..16t+15 of each; the two arguments are each read through two
  windows. From every pair of blocks it forms, row by row, the exponential of the sum times the reciprocal of that
  row's sum of exponentials, and stores the first result in rows 0..7 and the second in rows 8..15 of a sixteen-row
  block, which is written back as rows 16t..16t+15 of the result. The two stores tile the sixteen-row block, so what
  the block holds afterwards does not depend on what it held before. The arguments are only read: each of the two
  windows on an argument holds half of the right to it, and the halves are rejoined when the kernel returns.
-/
import proofs.«177873_g1580547969666_cont_sun_c4_142_8_alg».proof.Proof.Gen.Kernel.Launch
import proofs.«177873_g1580547969666_cont_sun_c4_142_8_alg».proof.Proof.Gen.Kernel.Skeleton
import proofs.«177873_g1580547969666_cont_sun_c4_142_8_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the kernel finds them: as launched. -/
abbrev V (c : Dev nD) (b : Ref sig .tc) : Buf (Elt F) ((c : Thread nD τ).loc b) := m ((c : Thread nD τ).loc b)

/-- Window w's block of its array at point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- A whole eight-row block. -/
abbrev rIn : Rect S8x100000 := Rect.unit (s := S8x100000) ![0, 0] S8x100000.size inb_S8x100000_S8x100000_0_0
/-- Rows 0..7 of the sixteen-row block. -/
abbrev rLo : Rect S16x100000 := Rect.unit (s := S16x100000) ![0, 0] S8x100000.size inb_S16x100000_S8x100000_0_0
/-- Rows 8..15 of the sixteen-row block. -/
abbrev rHi : Rect S16x100000 := Rect.unit (s := S16x100000) ![8, 0] S8x100000.size inb_S16x100000_S8x100000_8_0

/-- The sixteen-row block after the body: the second pair's result over rows 8..15, the first pair's over rows 0..7. -/
def outBlk (x0 x1 x2 x3 : Vec F S8x100000 .f32) : Vec F S16x100000 .f32 :=
  View.canon [⟨rHi, k0_pay2 (View.ld x2 rIn) (View.ld x3 rIn)⟩, ⟨rLo, k0_pay1 (View.ld x0 rIn) (View.ld x1 rIn)⟩]

/-- The two stores tile the sixteen-row block. -/
theorem cover_out (p1 p0 : Vec F S8x100000 .f32) (y : S16x100000.Idx) :
    ∃ pc ∈ ([⟨rHi, p1⟩, ⟨rLo, p0⟩] : List (View.Piece (Elt F) S16x100000 .f32)), y ∈ pc.1.set :=
  View.cover_of_tiled [⟨rHi, p1⟩, ⟨rLo, p0⟩] S8x100000.size (by rfl) y

/-! ## The body's triple -/

set_option maxHeartbeats 1000000 in
/-- The body on whole staging memrefs, the four inputs' at contents x0..x3 and the output's at anything, runs to the
    continuation holding the inputs' as they were and the output's at outBlk of them. -/
theorem sound_kernel (c : Dev nD) (E : Set ℕ) (i : grid0.Coords)
    (arg1 : Memref sig .tc .vmem S8x100000 .f32) (harg1 : arg1.IsWhole) (arg2 : Memref sig .tc .vmem S8x100000 .f32) (harg2 : arg2.IsWhole)
    (arg3 : Memref sig .tc .vmem S8x100000 .f32) (harg3 : arg3.IsWhole) (arg4 : Memref sig .tc .vmem S8x100000 .f32) (harg4 : arg4.IsWhole)
    (arg5 : Memref sig .tc .vmem S16x100000 .f32) (harg5 : arg5.IsWhole)
    (x0 x1 x2 x3 : Vec F S8x100000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlk x0 x1 x2 x3)) -∗ K ⟨⟩))
      ⊢ wp frame (wpE (defs₀ (F := F)) Variants.none c none) E (cc0__softmax_rows i arg1 harg1 arg2 harg2 arg3 harg3 arg4 harg4 arg5 harg5) K := by
  simp only [cc0__softmax_rows_eq_skeleton]; unfold cc0__softmax_rows_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

/-! ## The pipeline's proof data -/

/-- The proof data on core c: the arrays as launched; after the body at point t each input window's buffer at its
    block and the output's at outBlk of the four blocks; no invariant; nothing owed; the two windows on each argument
    hold the left and the right half of the right to it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := iprop(emp)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

/-- Every input window is fetched at every point, so its buffer holds its block there. -/
theorem before0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  THE LAUNCH AND THE FRAME.

  The kernel's five windows stand on three arrays: each argument is read through two windows, the result is written
  through one. At launch each array is held whole; an argument's right is split in two halves, one per window that
  reads it, and the result's stays whole with its window. With the body's obligation at every grid point this gives
  the run: every weakly fair execution terminates, nothing faults, and each array ends at what the write-backs
  compose — for an argument, never written, what it held.
-/
import proofs.«177873_g1580547969666_cont_sun_c4_142_8_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The proof's resource algebra: one copy of the rounds library's, the pipeline's. -/
abbrev EP : Emb (UR sig nD τ) (MT nD τ sig Unit (Elt F) ℕ (UR sig nD τ) ℕ) := emb₁

/-- The rounds library's launch element: every staging cell's owner at round 0 and a duty token for every transfer
    the pipeline issues. -/
def u₀ : UR sig nD τ := initOf (Pipeline.cells cfgs cellOf_inj) (Pipeline.launchToks cfgs cellOf_inj)

/-- The three buffers behind the five windows' arrays, each held whole, are the five windows' holdings: each
    argument's right split into its left and right halves between the two windows that read it, the result's whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_v0] (by decide) (by decide), bigSep_W0]
  simp only [bigSepL_cons_cons, bigSepL_singleton, View.set_whole]
  rw [show (dats m 0 c).share 0 = fullShare.left from rfl, show (dats m 0 c).share 1 = fullShare.left from rfl,
    show (dats m 0 c).share 2 = fullShare.right from rfl, show (dats m 0 c).share 3 = fullShare.right from rfl,
    show (dats m 0 c).share 4 = fullShare from rfl]
  change iprop(((c : Thread nD τ).loc main_arg0 ↦{fullShare} V m c main_arg0)
      ∗ ((c : Thread nD τ).loc main_arg1 ↦{fullShare} V m c main_arg1)
      ∗ ((c : Thread nD τ).loc main_v0 ↦{fullShare} V m c main_v0)) ⊢ _
  iintro ⟨Ha, Hb, Hv⟩
  ihave Ha' := (pointsTo_share (PosShare.mem_left_op_right fullShare)).1 $$ Ha
  icases Ha' with ⟨Ha1, Ha2⟩
  ihave Hb' := (pointsTo_share (PosShare.mem_left_op_right fullShare)).1 $$ Hb
  icases Hb' with ⟨Hb1, Hb2⟩
  isplitl [Ha1]; · iexact Ha1
  isplitl [Hb1]; · iexact Hb1
  isplitl [Ha2]; · iexact Ha2
  isplitl [Hb2]; · iexact Hb2
  iexact Hv

/-- An array's contents after the run, as the write-backs compose them. -/
def finalA (c : Dev nD) (w : Fin cfg0.W) : Buf (Elt F) ((cfg0.win w).arr.view.loc (c : Thread nD τ)) :=
  (dats m 0 c).arrAt w cfg0.N

/-- The physical post: every windowed array holds what the write-backs compose. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- From any memory with zero counters every weakly fair execution of the program terminates, nothing faulting, with
    every windowed array at the contents the write-backs compose. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The arguments are inputs: after the run they hold what they held. -/
theorem finalA_in0 (c : Dev nD) : finalA m c (0 : Fin 5) = m ((c : Thread nD τ).loc main_arg0) :=
  (dats (F := F) m 0 c).arrAt_in (0 : Fin 5) rfl _
theorem finalA_in1 (c : Dev nD) : finalA m c (1 : Fin 5) = m ((c : Thread nD τ).loc main_arg1) :=
  (dats (F := F) m 0 c).arrAt_in (1 : Fin 5) rfl _

/-- The frame: the program runs to the end, nothing faulting, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (0 : Fin 5)).trans (finalA_in0 m c), (h c (1 : Fin 5)).trans (finalA_in1 m c)⟩)
    (run_main m ρ)

end Cert.Kernel.Hand

end
-- ==== Proof.KIFrame.lean ====
/-
  THE KERNEL'S RUN, POINT BY POINT.

  The kernel walks a grid of four points. At point t it is handed four blocks of eight rows each: rows 16t..16t+7 of
  the first argument and of the second, and rows 16t+8..16t+15 of each; the two arguments are each read through two
  windows. From every pair of blocks it forms, row by row, the exponential of the sum times the reciprocal of that
  row's sum of exponentials, and stores the first result in rows 0..7 and the second in rows 8..15 of a sixteen-row
  block, which is written back as rows 16t..16t+15 of the result. The two stores tile the sixteen-row block, so what
  the block holds afterwards does not depend on what it held before. The arguments are only read: each of the two
  windows on an argument holds half of the right to it, and the halves are rejoined when the kernel returns.
-/
import proofs.«177873_g1580547969666_cont_sun_c4_142_8_alg».proof.Proof.Gen.KernelIdeal.Launch
import proofs.«177873_g1580547969666_cont_sun_c4_142_8_alg».proof.Proof.Gen.KernelIdeal.Skeleton
import proofs.«177873_g1580547969666_cont_sun_c4_142_8_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the kernel finds them: as launched. -/
abbrev V (c : Dev nD) (b : Ref sig .tc) : Buf (Elt F) ((c : Thread nD τ).loc b) := m ((c : Thread nD τ).loc b)

/-- Window w's block of its array at point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- A whole eight-row block. -/
abbrev rIn : Rect S8x100000 := Rect.unit (s := S8x100000) ![0, 0] S8x100000.size inb_S8x100000_S8x100000_0_0
/-- Rows 0..7 of the sixteen-row block. -/
abbrev rLo : Rect S16x100000 := Rect.unit (s := S16x100000) ![0, 0] S8x100000.size inb_S16x100000_S8x100000_0_0
/-- Rows 8..15 of the sixteen-row block. -/
abbrev rHi : Rect S16x100000 := Rect.unit (s := S16x100000) ![8, 0] S8x100000.size inb_S16x100000_S8x100000_8_0

/-- The sixteen-row block after the body: the second pair's result over rows 8..15, the first pair's over rows 0..7. -/
def outBlk (x0 x1 x2 x3 : Vec F S8x100000 .f32) : Vec F S16x100000 .f32 :=
  View.canon [⟨rHi, k0_pay2 (View.ld x2 rIn) (View.ld x3 rIn)⟩, ⟨rLo, k0_pay1 (View.ld x0 rIn) (View.ld x1 rIn)⟩]

/-- The two stores tile the sixteen-row block. -/
theorem cover_out (p1 p0 : Vec F S8x100000 .f32) (y : S16x100000.Idx) :
    ∃ pc ∈ ([⟨rHi, p1⟩, ⟨rLo, p0⟩] : List (View.Piece (Elt F) S16x100000 .f32)), y ∈ pc.1.set :=
  View.cover_of_tiled [⟨rHi, p1⟩, ⟨rLo, p0⟩] S8x100000.size (by rfl) y

/-! ## The body's triple -/

set_option maxHeartbeats 1000000 in
/-- The body on whole staging memrefs, the four inputs' at contents x0..x3 and the output's at anything, runs to the
    continuation holding the inputs' as they were and the output's at outBlk of them. -/
theorem sound_kernel (c : Dev nD) (E : Set ℕ) (i : grid0.Coords)
    (arg1 : Memref sig .tc .vmem S8x100000 .f32) (harg1 : arg1.IsWhole) (arg2 : Memref sig .tc .vmem S8x100000 .f32) (harg2 : arg2.IsWhole)
    (arg3 : Memref sig .tc .vmem S8x100000 .f32) (harg3 : arg3.IsWhole) (arg4 : Memref sig .tc .vmem S8x100000 .f32) (harg4 : arg4.IsWhole)
    (arg5 : Memref sig .tc .vmem S16x100000 .f32) (harg5 : arg5.IsWhole)
    (x0 x1 x2 x3 : Vec F S8x100000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlk x0 x1 x2 x3)) -∗ K ⟨⟩))
      ⊢ wp frame (wpE (defs₀ (F := F)) Variants.none c none) E (cc0__softmax_rows i arg1 harg1 arg2 harg2 arg3 harg3 arg4 harg4 arg5 harg5) K := by
  simp only [cc0__softmax_rows_eq_skeleton]; unfold cc0__softmax_rows_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

/-! ## The pipeline's proof data -/

/-- The proof data on core c: the arrays as launched; after the body at point t each input window's buffer at its
    block and the output's at outBlk of the four blocks; no invariant; nothing owed; the two windows on each argument
    hold the left and the right half of the right to it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := iprop(emp)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

/-- Every input window is fetched at every point, so its buffer holds its block there. -/
theorem before0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  THE LAUNCH AND THE FRAME.

  The kernel's five windows stand on three arrays: each argument is read through two windows, the result is written
  through one. At launch each array is held whole; an argument's right is split in two halves, one per window that
  reads it, and the result's stays whole with its window. With the body's obligation at every grid point this gives
  the run: every weakly fair execution terminates, nothing faults, and each array ends at what the write-backs
  compose — for an argument, never written, what it held.
-/
import proofs.«177873_g1580547969666_cont_sun_c4_142_8_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The proof's resource algebra: one copy of the rounds library's, the pipeline's. -/
abbrev EP : Emb (UR sig nD τ) (MT nD τ sig Unit (Elt F) ℕ (UR sig nD τ) ℕ) := emb₁

/-- The rounds library's launch element: every staging cell's owner at round 0 and a duty token for every transfer
    the pipeline issues. -/
def u₀ : UR sig nD τ := initOf (Pipeline.cells cfgs cellOf_inj) (Pipeline.launchToks cfgs cellOf_inj)

/-- The three buffers behind the five windows' arrays, each held whole, are the five windows' holdings: each
    argument's right split into its left and right halves between the two windows that read it, the result's whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_v0] (by decide) (by decide), bigSep_W0]
  simp only [bigSepL_cons_cons, bigSepL_singleton, View.set_whole]
  rw [show (dats m 0 c).share 0 = fullShare.left from rfl, show (dats m 0 c).share 1 = fullShare.left from rfl,
    show (dats m 0 c).share 2 = fullShare.right from rfl, show (dats m 0 c).share 3 = fullShare.right from rfl,
    show (dats m 0 c).share 4 = fullShare from rfl]
  change iprop(((c : Thread nD τ).loc main_arg0 ↦{fullShare} V m c main_arg0)
      ∗ ((c : Thread nD τ).loc main_arg1 ↦{fullShare} V m c main_arg1)
      ∗ ((c : Thread nD τ).loc main_v0 ↦{fullShare} V m c main_v0)) ⊢ _
  iintro ⟨Ha, Hb, Hv⟩
  ihave Ha' := (pointsTo_share (PosShare.mem_left_op_right fullShare)).1 $$ Ha
  icases Ha' with ⟨Ha1, Ha2⟩
  ihave Hb' := (pointsTo_share (PosShare.mem_left_op_right fullShare)).1 $$ Hb
  icases Hb' with ⟨Hb1, Hb2⟩
  isplitl [Ha1]; · iexact Ha1
  isplitl [Hb1]; · iexact Hb1
  isplitl [Ha2]; · iexact Ha2
  isplitl [Hb2]; · iexact Hb2
  iexact Hv

/-- An array's contents after the run, as the write-backs compose them. -/
def finalA (c : Dev nD) (w : Fin cfg0.W) : Buf (Elt F) ((cfg0.win w).arr.view.loc (c : Thread nD τ)) :=
  (dats m 0 c).arrAt w cfg0.N

/-- The physical post: every windowed array holds what the write-backs compose. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- From any memory with zero counters every weakly fair execution of the program terminates, nothing faulting, with
    every windowed array at the contents the write-backs compose. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The arguments are inputs: after the run they hold what they held. -/
theorem finalA_in0 (c : Dev nD) : finalA m c (0 : Fin 5) = m ((c : Thread nD τ).loc main_arg0) :=
  (dats (F := F) m 0 c).arrAt_in (0 : Fin 5) rfl _
theorem finalA_in1 (c : Dev nD) : finalA m c (1 : Fin 5) = m ((c : Thread nD τ).loc main_arg1) :=
  (dats (F := F) m 0 c).arrAt_in (1 : Fin 5) rfl _

/-- The frame: the program runs to the end, nothing faulting, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (0 : Fin 5)).trans (finalA_in0 m c), (h c (1 : Fin 5)).trans (finalA_in1 m c)⟩)
    (run_main m ρ)

end Cert.KernelIdeal.Hand

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibSoftmaxRows.lean ====
/-
  SOFTMAX ALONG THE ROWS OF A MATRIX, READ AT AN ELEMENT.

  For a row x of n extended reals put  m = max(-inf, max_k x_k)  (the maximum taken from minus infinity, as both a
  vector reduction and a host reduction take it) and  softmax(x)_d = exp(x_d - m) / sum_k exp(x_k - m).
  A kernel block computes this with a lane maximum, a keep-dims column re-laid and spread over the columns, an
  exponential, a lane sum and a quotient; a host program with a reduce by maximum, a maximum with a splat of minus
  infinity, two broadcasts, an exponential, a reduce by addition from zero and a quotient. Both, read at (r, c) at the
  ideal values, are  softmaxRow (row r) c.
-/
import Idealize.ShloMosaic.PureOps.Ideal.Laws
import Idealize.ShloMosaic.Lib.Pipeline.Value
import Idealize.ShloMosaic.Lib.ValueIdx
import Idealize.ShloMosaic.Lib.IdealHost
import proofs.«177873_g1580547969666_cont_sun_c4_142_8_alg».proof.Proof.LibColBroadcast
import proofs.«177873_g1580547969666_cont_sun_c4_142_8_alg».proof.Proof.LibHostRead

noncomputable section

open scoped BigOperators

namespace Cert.Lib

open Idealize.ShloMosaic Idealize.ShloMosaic.ValueIdx

/-- The maximum of a row, taken from minus infinity (the f32 word 0xFF800000) and met once more with it. -/
def rowMax {n : ℕ} (x : Fin n → EReal) : EReal :=
  max (Ideal.ofBits .f32 0xFF800000#32) ((Finset.univ : Finset (Fin n)).fold max (Ideal.ofBits .f32 0xFF800000#32) x)

/-- Softmax of a row at entry d: exp (x d - max) over the sum of exp (x k - max). -/
def softmaxRow {n : ℕ} (x : Fin n → EReal) (d : Fin n) : EReal :=
  Ideal.div (Ideal.exp (x d - rowMax x)) (∑ k : Fin n, Ideal.exp (x k - rowMax x))

/-- Inserting the column k into the row index r of an R-by-C matrix gives (r, k). -/
theorem lift_row {R C : ℕ} (h : (⟨2, ![R, C]⟩ : Shape).Reduces [(1 : Fin 2)] ⟨1, ![R]⟩) (r : Fin R)
    (k : Fin ((⟨2, ![R, C]⟩ : Shape).size (1 : Fin 2))) :
    h.lift (ix1 r) k = ix2 r (⟨k.val, k.isLt⟩ : Fin C) := by
  funext c
  apply Fin.ext
  rw [Shape.Reduces.lift_val]
  unfold Shape.Reduces.liftVal
  match c with
  | ⟨0, _⟩ => simp
  | ⟨1, _⟩ => simp

/-- A vector of R numbers re-laid as an R-by-1 column and spread over C columns holds, at (p, c), its entry p. -/
theorem colOfVec_apply {α : Type} {R C : ℕ} (v : (⟨1, ![R]⟩ : Shape).Idx → α)
    (hsc : (⟨1, ![R]⟩ : Shape).ShapeCasts ⟨2, ![R, 1]⟩) (hbc : (⟨2, ![R, 1]⟩ : Shape).Broadcasts ⟨2, ![R, C]⟩)
    (p : Fin R) (c : Fin C) :
    broadcastTo ⟨2, ![R, C]⟩ (shapeCast ⟨2, ![R, 1]⟩ v hsc) hbc (ix2 p c) = v (ix1 p) := by
  rw [broadcastTo_a1_ab_apply]
  refine shapeCast_apply v hsc (ix2 p (0 : Fin 1)) (ix1 p) ?_
  rw [Shape.rowMajor_val_two, Shape.rowMajor_val_one]
  show p.val = p.val * 1 + 0
  omega

/-! ## The kernel's spelling -/

/-- The kernel's row maxima as a matrix: the lane maximum from minus infinity, met with a splat of minus infinity,
    re-laid as a column and spread over the columns. -/
abbrev kMaxSpread {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩) :
    FVec Ideal ⟨2, ![R, C]⟩ .f32 :=
  broadcastTo ⟨2, ![R, C]⟩ (shapeCast ⟨2, ![R, 1]⟩
    (maximumf (broadcast ⟨1, ![R]⟩ (Scalar.ofBits (F := Ideal) .f32 0xFF800000#32))
      (multiReduction .maximumf [(1 : Fin 2)] ⟨1, ![R]⟩ x 0xFF800000#32 hred hφ haccM)) hsc) hbc

theorem kMaxSpread_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩)
    (p : Fin R) (k : Fin C) :
    kMaxSpread x hred hφ haccM hsc hbc (ix2 p k) = rowMax (fun k => x (ix2 p k)) := by
  show broadcastTo ⟨2, ![R, C]⟩ (shapeCast ⟨2, ![R, 1]⟩ _ hsc) hbc (ix2 p k) = _
  rw [colOfVec_apply]
  show max (Ideal.ofBits .f32 0xFF800000#32)
    (multiReduction .maximumf [(1 : Fin 2)] ⟨1, ![R]⟩ x 0xFF800000#32 hred hφ haccM (ix1 p)) = _
  rw [Ideal.multiReduction_maximumf_single]
  have e : (x ∘ hred.lift (ix1 p)) = fun k : Fin C => x (ix2 p k) :=
    funext fun k => congrArg x (lift_row hred p k)
  rw [e]
  rfl

/-- The kernel's softmax of a block's rows, read at (r, c). -/
theorem kernelSoftmax_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, C]⟩)
    (r : Fin R) (c : Fin C) :
    divf (exp (subf x (kMaxSpread x hred hφ haccM hsc hbc)))
      (broadcastTo ⟨2, ![R, C]⟩ (shapeCast ⟨2, ![R, 1]⟩
        (multiReduction .add [(1 : Fin 2)] ⟨1, ![R]⟩ (exp (subf x (kMaxSpread x hred hφ haccM hsc hbc)))
          0x00000000#32 hred hφ haccA) hsc) hbc) (ix2 r c)
      = softmaxRow (fun k => x (ix2 r k)) c := by
  have hm := kMaxSpread_apply x hred hφ haccM hsc hbc
  show Ideal.div (Ideal.exp (x (ix2 r c) - kMaxSpread x hred hφ haccM hsc hbc (ix2 r c)))
    (broadcastTo ⟨2, ![R, C]⟩ (shapeCast ⟨2, ![R, 1]⟩ _ hsc) hbc (ix2 r c)) = _
  rw [hm r c, colOfVec_apply, Ideal.multiReduction_add_single]
  unfold softmaxRow
  refine congrArg (Ideal.div _) (Finset.sum_congr rfl fun k _ => ?_)
  rw [lift_row hred r k]
  show Ideal.exp (x (ix2 r ⟨k.val, k.isLt⟩) - kMaxSpread x hred hφ haccM hsc hbc (ix2 r ⟨k.val, k.isLt⟩)) = _
  rw [hm r ⟨k.val, k.isLt⟩]
  rfl

/-! ## The host's spelling -/

/-- The host's row maxima as a matrix: a reduce by maximum from minus infinity, met with a splat of minus infinity,
    broadcast to a column and then over the columns. -/
abbrev hMaxSpread {R C : ℕ} (x : FVec Ideal ⟨2, ![R, C]⟩ .f32)
    (h' : (⟨2, ![R, C]⟩ : Shape).ReducesTo [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) : FVec Ideal ⟨2, ![R, C]⟩ .f32 :=
  broadcastInDim ⟨2, ![R, C]⟩ ![0, 1] hb2 (broadcastInDim ⟨2, ![R, 1]⟩ ![0] hb1
    (maximumf (broadcastInDim ⟨1, ![R]⟩ ![] hb0 (constant (F := Ideal) ⟨0, ![]⟩ .f32 0xFF800000#32))
      (Host.reduce FloatOps.maximumf x (constant (F := Ideal) ⟨0, ![]⟩ .f32 0xFF800000#32) h' hS)))

theorem hMaxSpread_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (p : Fin R) (k : Fin C) :
    hMaxSpread x h' hS hb0 hb1 hb2 (ix2 p k) = rowMax (fun k => x (ix2 p k)) := by
  show broadcastInDim ⟨2, ![R, C]⟩ ![0, 1] hb2 (broadcastInDim (s := ⟨1, ![R]⟩) ⟨2, ![R, 1]⟩ ![0] hb1 _) (ix2 p k) = _
  rw [colSpread_apply ![0] rfl hb1 ![0, 1] rfl rfl hb2]
  show max (broadcastInDim ⟨1, ![R]⟩ ![] hb0 (constant (F := Ideal) ⟨0, ![]⟩ .f32 0xFF800000#32) (ix1 p))
    (Host.reduce FloatOps.maximumf x (constant (F := Ideal) ⟨0, ![]⟩ .f32 0xFF800000#32) h' hS (ix1 p)) = _
  rw [splat_apply, Host.reduce_eq_fold_single FloatOps.maximumf x _ h' hred hS (ix1 p)]
  have e : (x ∘ hred.lift (ix1 p)) = fun k : Fin C => x (ix2 p k) :=
    funext fun k => congrArg x (lift_row hred p k)
  rw [e]
  rfl

/-- The host's softmax of a matrix's rows, read at (r, c). -/
theorem hostSoftmax_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (r : Fin R) (c : Fin C) :
    Host.divf (Host.exp (subf x (hMaxSpread x h' hS hb0 hb1 hb2)))
      (broadcastInDim ⟨2, ![R, C]⟩ ![0, 1] hb2 (broadcastInDim ⟨2, ![R, 1]⟩ ![0] hb1
        (Host.reduceAdd (Host.exp (subf x (hMaxSpread x h' hS hb0 hb1 hb2)))
          (constant (F := Ideal) ⟨0, ![]⟩ .f32 0x00000000#32) h' hS))) (ix2 r c)
      = softmaxRow (fun k => x (ix2 r k)) c := by
  have hm := hMaxSpread_apply x h' hred hS hb0 hb1 hb2
  show Ideal.div (Ideal.exp (x (ix2 r c) - hMaxSpread x h' hS hb0 hb1 hb2 (ix2 r c)))
    (broadcastInDim ⟨2, ![R, C]⟩ ![0, 1] hb2 (broadcastInDim (s := ⟨1, ![R]⟩) ⟨2, ![R, 1]⟩ ![0] hb1 _) (ix2 r c)) = _
  rw [hm r c, colSpread_apply ![0] rfl hb1 ![0, 1] rfl rfl hb2]
  simp only [Host.reduceAdd, Ideal.hostReduceAdd_def]
  rw [Ideal.hostReduceAdd_single h' hred]
  show Ideal.div _ (Ideal.ofBits .f32 0x00000000#32 + _) = _
  rw [Ideal.ofBits_zero_f32, zero_add]
  unfold softmaxRow
  refine congrArg (Ideal.div _) (Finset.sum_congr rfl fun k _ => ?_)
  rw [lift_row hred r k]
  show Ideal.exp (x (ix2 r ⟨k.val, k.isLt⟩) - hMaxSpread x h' hS hb0 hb1 hb2 (ix2 r ⟨k.val, k.isLt⟩)) = _
  rw [hm r ⟨k.val, k.isLt⟩]
  rfl

end Cert.Lib

end
-- ==== Proof.Spec.lean ====
/-
  THE FUNCTION BOTH PROGRAMS COMPUTE.

  For two 64-by-100000 matrices a and b of extended reals put  s(r,k) = (a(r,k) + b(r,k)) / 1  and, along each row,
  m_r = max(-inf, max_k s(r,k)).  The result is the row softmax of s,

      G a b (r,c) = exp(s(r,c) - m_r) / sum_k exp(s(r,k) - m_r).

  The second form, K, is the same quantity without the shift by the row maximum and with the division by the
  row sum written as a product with its reciprocal:

      K a b (r,c) = exp((a(r,c) + b(r,c)) * 1) * (1 / sum_k exp((a(r,k) + b(r,k)) * 1)).

  For matrices of real numbers the two agree: exp(s - m) = exp(s) * exp(-m), and the positive real factor exp(-m_r)
  cancels between numerator and denominator. At an infinite entry they differ, so the agreement is stated for reals.
-/
import Idealize.ShloMosaic.PureOps.Ideal
import Idealize.ShloMosaic.Lib.ValueIdx
import proofs.«177873_g1580547969666_cont_sun_c4_142_8_alg».proof.Proof.LibSoftmaxRows

noncomputable section

open scoped BigOperators

namespace Cert.Spec

open Idealize.ShloMosaic Idealize.ShloMosaic.ValueIdx

/-- The matrices' shape. -/
abbrev M : Shape := ⟨2, ![64, 100000]⟩

/-- The number one as the f32 word both programs spell it with. -/
abbrev one : EReal := Ideal.ofBits .f32 0x3F800000#32

/-- Row r of the scores: (a + b) / 1. -/
def scoreRow (a b : M.Idx → EReal) (r : Fin 64) : Fin 100000 → EReal :=
  fun k => Ideal.div (a (ix2 r k) + b (ix2 r k)) one

/-- Row r of the sums a + b. -/
def sumRow (a b : M.Idx → EReal) (r : Fin 64) : Fin 100000 → EReal :=
  fun k => a (ix2 r k) + b (ix2 r k)

/-- The row softmax of the scores, shifted by the row maximum. -/
def G (a b : M.Idx → EReal) : M.Idx → EReal :=
  fun i => Cert.Lib.softmaxRow (scoreRow a b (i 0)) (i 1)

/-- The unshifted form: the exponential times the reciprocal of the row's sum of exponentials. -/
def K (a b : M.Idx → EReal) : M.Idx → EReal :=
  fun i => Ideal.exp (sumRow a b (i 0) (i 1) * one) * Ideal.div one (∑ k : Fin 100000, Ideal.exp (sumRow a b (i 0) k * one))

end Cert.Spec

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.KIPayload.lean ====
/-
  THE KERNEL'S BLOCK OF EIGHT ROWS, READ AT AN ELEMENT.

  On a block of eight rows of the two inputs the kernel adds them, multiplies by a splat of the number one, takes
  the exponential, sums each row over its 100000 lanes from zero, lays the eight sums out as a column, divides a
  splat of one by that column, spreads the quotient over the columns and multiplies. At the element (p, q) this is

      exp((x0(p,q) + x1(p,q)) * 1) * (1 / sum_k exp((x0(p,k) + x1(p,k)) * 1)):

  a column spread over the columns holds its row's number, a vector laid out as a column holds its entry, and a
  lane sum at row p is the sum over the entries of row p. When row p of the block is row r of the whole matrices
  this is the unshifted form K at (r, q).
-/
import proofs.«177873_g1580547969666_cont_sun_c4_142_8_alg».proof.Proof.Gen.KernelIdeal.Skeleton
import proofs.«177873_g1580547969666_cont_sun_c4_142_8_alg».proof.Proof.Spec
import proofs.«177873_g1580547969666_cont_sun_c4_142_8_alg».proof.Proof.LibLaneSums
import proofs.«177873_g1580547969666_cont_sun_c4_142_8_alg».proof.Proof.LibColCast
import proofs.«177873_g1580547969666_cont_sun_c4_142_8_alg».proof.Proof.LibColBroadcast
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block's exponentials: exp of the sum of the two operands times a splat of one. -/
abbrev expBlock (x0 x1 : Vec Ideal S8x100000 .f32) : FVec Ideal S8x100000 .f32 :=
  exp (mulf (addf x0 x1) (broadcast S8x100000 (Scalar.ofBits (F := Ideal) .f32 0x3F800000#32)))

/-- The column of reciprocals: a splat of one divided by the lane sums of the exponentials laid out as a column. -/
abbrev recipCol (x0 x1 : Vec Ideal S8x100000 .f32) : FVec Ideal S8x1 .f32 :=
  divf (broadcast S8x1 (Scalar.ofBits (F := Ideal) .f32 0x3F800000#32))
    (shapeCast S8x1 (multiReduction .add [1] S8 (expBlock x0 x1) 0x00000000#32 reduces_S8x100000_S8 (.inl rfl) rfl)
      shapeCasts_S8_S8x1)

/-- The first block's stored value is the exponentials times the column of reciprocals spread over the columns. -/
theorem pay1_eq (x0 x1 : Vec Ideal S8x100000 .f32) :
    k0_pay1 (F := Ideal) x0 x1
      = mulf (expBlock x0 x1) (broadcastTo S8x100000 (recipCol x0 x1) broadcasts_S8x1_S8x100000) := rfl

/-- An exponential of the block at (p, k). -/
theorem expBlock_apply (x0 x1 : Vec Ideal S8x100000 .f32) (p : Fin 8) (k : Fin 100000) :
    expBlock x0 x1 (ix2 p k) = Ideal.exp ((x0 (ix2 p k) + x1 (ix2 p k)) * Cert.Spec.one) := rfl

/-- A splat of the f32 word 0x3F800000 holds the number one everywhere. -/
theorem splat_one (s : Shape) (i : s.Idx) :
    broadcast s (Scalar.ofBits (F := Ideal) .f32 0x3F800000#32) i = Cert.Spec.one := rfl

/-- The column of reciprocals at row p: one over the sum of the row's exponentials. -/
theorem recipCol_apply (x0 x1 : Vec Ideal S8x100000 .f32) (p : Fin 8) :
    recipCol x0 x1 (ix2 p (0 : Fin 1))
      = Ideal.div Cert.Spec.one (∑ k : Fin 100000, Ideal.exp ((x0 (ix2 p k) + x1 (ix2 p k)) * Cert.Spec.one)) := by
  refine (divf_apply _ _ _).trans ?_
  refine congrArg₂ Ideal.div (splat_one S8x1 _) ?_
  refine (Cert.Lib.shapeCast_a_a1_apply _ shapeCasts_S8_S8x1 p 0).trans ?_
  refine (Cert.Lib.rowSum_apply (expBlock x0 x1) _ reduces_S8x100000_S8 _ _ p).trans ?_
  exact Finset.sum_congr rfl fun k _ => expBlock_apply x0 x1 p k

/-- The first block's stored value at (p, q): the exponential of the sum times one, times the reciprocal of the
    row's sum of such exponentials. -/
theorem pay1_apply (x0 x1 : Vec Ideal S8x100000 .f32) (p : Fin 8) (q : Fin 100000) :
    k0_pay1 (F := Ideal) x0 x1 (ix2 p q)
      = Ideal.exp ((x0 (ix2 p q) + x1 (ix2 p q)) * Cert.Spec.one)
        * Ideal.div Cert.Spec.one (∑ k : Fin 100000, Ideal.exp ((x0 (ix2 p k) + x1 (ix2 p k)) * Cert.Spec.one)) := by
  rw [pay1_eq]
  refine (mulf_apply _ _ _).trans ?_
  refine congrArg₂ (fun u v : EReal => u * v) (expBlock_apply x0 x1 p q) ?_
  exact (Cert.Lib.broadcastTo_a1_ab_apply (recipCol x0 x1) broadcasts_S8x1_S8x100000 p q).trans
    (recipCol_apply x0 x1 p)

/-- The second block's stored value is the same function of its two operands as the first's. -/
theorem pay2_eq : @k0_pay2 Ideal _ = @k0_pay1 Ideal _ := rfl

/-- When row p of the two blocks is row r of the matrices a and b, the stored value at (p, q) is K a b at (r, q). -/
theorem pay1_row_ix (a b : Cert.Spec.M.Idx → EReal) (x0 x1 : Vec Ideal S8x100000 .f32) (p : Fin 8) (q : Fin 100000)
    (r : Fin 64) (h0 : ∀ k : Fin 100000, x0 (ix2 p k) = a (ix2 r k))
    (h1 : ∀ k : Fin 100000, x1 (ix2 p k) = b (ix2 r k)) :
    k0_pay1 (F := Ideal) x0 x1 (ix2 p q) = Cert.Spec.K a b (ix2 r q) := by
  rw [pay1_apply]
  simp only [h0, h1]
  rfl

/-- When row p of the two blocks is row (i 0) of the matrices a and b, the stored value at (p, i 1) is K a b i. -/
theorem pay1_row (a b : Cert.Spec.M.Idx → EReal) (x0 x1 : Vec Ideal S8x100000 .f32) (p : Fin 8) (q : Fin 100000)
    (i : Cert.Spec.M.Idx) (h0 : ∀ k : Fin 100000, x0 (ix2 p k) = a (ix2 (i 0) k))
    (h1 : ∀ k : Fin 100000, x1 (ix2 p k) = b (ix2 (i 0) k)) (hq : i 1 = q) :
    k0_pay1 (F := Ideal) x0 x1 (ix2 p q) = Cert.Spec.K a b i := by
  have e : ix2 (i 0) q = i := by
    subst hq
    exact (eq_ix2 i).symm
  exact (pay1_row_ix a b x0 x1 p q (i 0) h0 h1).trans (congrArg (Cert.Spec.K a b) e)

end Cert.KernelIdeal.Payload

end
-- ==== Proof.KIValue.lean ====
/-
  WHAT THE KERNEL'S RESULT HOLDS.

  At grid point t the kernel writes back a block of sixteen rows, rows 16t..16t+15 of the result. Its first eight
  rows were computed from rows 16t..16t+7 of the two arguments and its last eight from rows 16t+8..16t+15, each row by
  the same rule: the exponential of the entry's sum times the reciprocal of the row's sum of exponentials. A row of
  the result therefore depends only on the same row of the arguments, and local row p of a piece is global row
  16t + p (or 16t + 8 + p) of the whole-array function K. The four blocks tile the sixty-four rows, so after the run
  the result array is K of the arguments.
-/
import proofs.«177873_g1580547969666_cont_sun_c4_142_8_alg».proof.Proof.KILaunch
import proofs.«177873_g1580547969666_cont_sun_c4_142_8_alg».proof.Proof.Spec
import Idealize.ShloMosaic.Lib.Pipeline.Value
import Idealize.ShloMosaic.Lib.ValueIdx
import proofs.«177873_g1580547969666_cont_sun_c4_142_8_alg».proof.Proof.KIPayload
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps over the grid: at point t the four input windows stand on blocks 2t, 2t, 2t+1, 2t+1 of
    eight rows, the output window on block t of sixteen; every block spans all columns. -/
theorem idx_facts : ∀ t : Fin cfg0.N,
    win0_0.index t (0 : Fin 2) = 2 * t.val ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-- What the result array is shown to hold: the unshifted row softmax of the two arguments as launched. -/
abbrev KK (c : Dev nD) : Buf (Elt Ideal) ((c : Thread nD τ).loc main_v0) :=
  Cert.Spec.K (V m c main_arg0) (V m c main_arg1)

/-- Rows 0..7 of point t's block: the first pair's result at local row p is the function at global row 16t + p, since
    the first pair's blocks are rows 16t..16t+7 of the arguments. -/
theorem lo_piece (c : Dev nD) (t : Fin cfg0.N) (x : S8x100000.Idx) :
    k0_pay1 (F := Ideal) (iblk m c 0 t) (iblk m c 1 t) x = KK m c (((cfg0.win 4).blk t).view.emb (rLo.emb x)) := by
  obtain ⟨p, q, rfl⟩ : ∃ (p : Fin 8) (q : Fin 100000), x = ix2 p q := ⟨x 0, x 1, eq_ix2 x⟩
  obtain ⟨e00, e01, e10, e11, e20, e21, e30, e31, e40, e41⟩ := idx_facts t
  refine Cert.KernelIdeal.Payload.pay1_row _ _ _ _ p q _ (fun k => ?_) (fun k => ?_) ?_
  · show V m c main_arg0 (((cfg0.win 0).blk t).view.emb (ix2 p k)) = _
    refine congrArg (V m c main_arg0) (funext fun a => Fin.ext ?_)
    match a with
    | ⟨0, _⟩ =>
      show win0_0.index t (0 : Fin 2) * 8 + 1 * p.val = win0_4.index t (0 : Fin 2) * 16 + 1 * (0 + 1 * p.val)
      omega
    | ⟨1, _⟩ =>
      show win0_0.index t (1 : Fin 2) * 100000 + 1 * k.val = k.val
      omega
  · show V m c main_arg1 (((cfg0.win 1).blk t).view.emb (ix2 p k)) = _
    refine congrArg (V m c main_arg1) (funext fun a => Fin.ext ?_)
    match a with
    | ⟨0, _⟩ =>
      show win0_1.index t (0 : Fin 2) * 8 + 1 * p.val = win0_4.index t (0 : Fin 2) * 16 + 1 * (0 + 1 * p.val)
      omega
    | ⟨1, _⟩ =>
      show win0_1.index t (1 : Fin 2) * 100000 + 1 * k.val = k.val
      omega
  · refine Fin.ext ?_
    show win0_4.index t (1 : Fin 2) * 100000 + 1 * (0 + 1 * q.val) = q.val
    omega

/-- Rows 8..15 of point t's block: the second pair's result at local row p is the function at global row 16t + 8 + p,
    since the second pair's blocks are rows 16t+8..16t+15 of the arguments. -/
theorem hi_piece (c : Dev nD) (t : Fin cfg0.N) (x : S8x100000.Idx) :
    k0_pay2 (F := Ideal) (iblk m c 2 t) (iblk m c 3 t) x = KK m c (((cfg0.win 4).blk t).view.emb (rHi.emb x)) := by
  rw [Cert.KernelIdeal.Payload.pay2_eq]
  obtain ⟨p, q, rfl⟩ : ∃ (p : Fin 8) (q : Fin 100000), x = ix2 p q := ⟨x 0, x 1, eq_ix2 x⟩
  obtain ⟨e00, e01, e10, e11, e20, e21, e30, e31, e40, e41⟩ := idx_facts t
  refine Cert.KernelIdeal.Payload.pay1_row _ _ _ _ p q _ (fun k => ?_) (fun k => ?_) ?_
  · show V m c main_arg0 (((cfg0.win 2).blk t).view.emb (ix2 p k)) = _
    refine congrArg (V m c main_arg0) (funext fun a => Fin.ext ?_)
    match a with
    | ⟨0, _⟩ =>
      show win0_2.index t (0 : Fin 2) * 8 + 1 * p.val = win0_4.index t (0 : Fin 2) * 16 + 1 * (8 + 1 * p.val)
      omega
    | ⟨1, _⟩ =>
      show win0_2.index t (1 : Fin 2) * 100000 + 1 * k.val = k.val
      omega
  · show V m c main_arg1 (((cfg0.win 3).blk t).view.emb (ix2 p k)) = _
    refine congrArg (V m c main_arg1) (funext fun a => Fin.ext ?_)
    match a with
    | ⟨0, _⟩ =>
      show win0_3.index t (0 : Fin 2) * 8 + 1 * p.val = win0_4.index t (0 : Fin 2) * 16 + 1 * (8 + 1 * p.val)
      omega
    | ⟨1, _⟩ =>
      show win0_3.index t (1 : Fin 2) * 100000 + 1 * k.val = k.val
      omega
  · refine Fin.ext ?_
    show win0_4.index t (1 : Fin 2) * 100000 + 1 * (0 + 1 * q.val) = q.val
    omega

theorem hz : (![0, 0] : Fin 2 → Nat) = fun _ => 0 := funext fun a => by fin_cases a <;> rfl

/-- What point t writes back is block t of the function: each of the two stored pieces is the function on its rows,
    and the two pieces tile the block. -/
theorem flushed4_eq (c : Dev nD) (t : Fin cfg0.N) :
    (dats m 0 c).flushed 4 t = ((cfg0.win 4).blk t).view.read (Elt Ideal) (KK m c) := by
  show (cfg0.win 4).cut (grid0.coords t) ((dats m 0 c).after 4 t) = _
  rw [after4]
  unfold outBlk
  simp only [View.ld_unit_zero (S := S8x100000) hz]
  funext y
  show View.canon [⟨rHi, k0_pay2 (F := Ideal) (iblk m c 2 t) (iblk m c 3 t)⟩, ⟨rLo, k0_pay1 (F := Ideal) (iblk m c 0 t) (iblk m c 1 t)⟩] y
    = KK m c (((cfg0.win 4).blk t).view.emb y)
  refine View.canon_apply_of_pieces (fun y => KK m c (((cfg0.win 4).blk t).view.emb y)) _ (fun pc hpc x => ?_) y (cover_out _ _ y)
  rcases List.mem_cons.mp hpc with rfl | hpc
  · exact hi_piece m c t x
  rcases List.mem_cons.mp hpc with rfl | hpc
  · exact lo_piece m c t x
  · exact absurd hpc List.not_mem_nil

/-- An index of the result is in point t's block iff each coordinate is in the block's range on its axis. -/
theorem mem_blk4 (t : Fin cfg0.N) (i : S64x100000.Idx) :
    i ∈ ((cfg0.win 4).blk t).view.set ↔ ∀ a : Fin 2, win0_4.index t a * S16x100000.size a ≤ (i a).val
      ∧ (i a).val < win0_4.index t a * S16x100000.size a + S16x100000.size a := by
  show i ∈ ((View.whole main_v0).slice (win0_4.rect t)).set ↔ _
  rw [View.set_slice_whole, Rect.mem_set_unit]
  exact Iff.rfl

/-- Every index of the result lies in the block of the point its row divided by sixteen names. -/
theorem covered (i : S64x100000.Idx) :
    ∃ t : Fin cfg0.N, (cfg0.win 4).flush t = true ∧ i ∈ ((cfg0.win 4).blk t).view.set := by
  have hi0 : (i 0).val < 64 := (i 0).isLt
  have hi1 : (i 1).val < 100000 := (i 1).isLt
  have hN : grid0.N = 4 := N_0
  have hlt : (i 0).val / 16 < grid0.N := by rw [hN]; omega
  obtain ⟨-, -, -, -, -, -, -, -, e40, e41⟩ := idx_facts ⟨(i 0).val / 16, hlt⟩
  refine ⟨⟨(i 0).val / 16, hlt⟩, flush0_4 _, (mem_blk4 _ i).mpr fun a => ?_⟩
  match a with
  | ⟨0, _⟩ =>
    show win0_4.index ⟨(i 0).val / 16, hlt⟩ (0 : Fin 2) * 16 ≤ (i 0).val
      ∧ (i 0).val < win0_4.index ⟨(i 0).val / 16, hlt⟩ (0 : Fin 2) * 16 + 16
    rw [e40]
    show (i 0).val / 16 * 16 ≤ (i 0).val ∧ (i 0).val < (i 0).val / 16 * 16 + 16
    omega
  | ⟨1, _⟩ =>
    show win0_4.index ⟨(i 0).val / 16, hlt⟩ (1 : Fin 2) * 100000 ≤ (i 1).val
      ∧ (i 1).val < win0_4.index ⟨(i 0).val / 16, hlt⟩ (1 : Fin 2) * 100000 + 100000
    rw [e41]
    omega

/-- The result array after the run is the function of the arguments. -/
theorem final4 (c : Dev nD) : finalA m c (4 : Fin 5) = KK m c :=
  (dats m 0 c).arrAt_eq_of_cover 4 (KK m c) (fun t _ => flushed4_eq m c t) covered

/-- The run, read: the result ends at the unshifted row softmax of the arguments, the arguments unchanged. -/
theorem run_K : θ_run defs (onTc (τ := τ) (main (F := Ideal))) ⟨m, fun _ => 0, ρ⟩ (fun r => ∀ c : Dev nD,
      r.2.mem ((c.tc : Thread nD τ).loc main_v0)
        = Cert.Spec.K (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (4 : Fin 5)).trans (final4 m c), (h c (0 : Fin 5)).trans (finalA_in0 m c),
      (h c (1 : Fin 5)).trans (finalA_in1 m c)⟩)
    (run_main m ρ)

end Cert.KernelIdeal.Hand

end
-- ==== Proof.RefValue.lean ====
/-
  THE REFERENCE'S RESULT IS THE ROW SOFTMAX OF THE SCORES.

  The reference adds the two inputs, divides by a splat of the number one, and takes the softmax along each row in
  the host's spelling: a reduce by maximum from minus infinity, a maximum with a splat of minus infinity, two
  broadcasts, a subtraction, an exponential, a reduce by addition from zero, two broadcasts and a quotient. Read at
  the element (r, c), that text is  softmaxRow (row r of the scores) c,  and row r of the scores at k is
  (a(r,k) + b(r,k)) / 1: the function G.
-/
import proofs.«177873_g1580547969666_cont_sun_c4_142_8_alg».proof.Proof.Gen.ReferenceIdeal.Run
import proofs.«177873_g1580547969666_cont_sun_c4_142_8_alg».proof.Proof.Spec
import proofs.«177873_g1580547969666_cont_sun_c4_142_8_alg».proof.Proof.LibSoftmaxRows
import proofs.«177873_g1580547969666_cont_sun_c4_142_8_alg».proof.Proof.LibHostRead

noncomputable section

namespace Cert.RefValue

open Cert.ReferenceIdeal Cert.ReferenceIdeal.Gen Cert.ReferenceIdeal.Value
open Idealize.ShloMosaic Idealize.ShloMosaic.ValueIdx Idealize.ShloMosaic.TcCoe Idealize.SL.Sem

/-- The reference's scores: the sum of the inputs divided by a splat of one. -/
abbrev scores (a b : FVec Ideal S64x100000 .f32) : FVec Ideal S64x100000 .f32 :=
  Host.divf (addf a b) (broadcastInDim S64x100000 ![] bcast_S_S64x100000 (constant (F := Ideal) S_ .f32 0x3F800000#32))

/-- The scores at (r, k) are (a(r,k) + b(r,k)) / 1: a splat holds its scalar everywhere. -/
theorem scores_apply (a b : FVec Ideal S64x100000 .f32) (r : Fin 64) (k : Fin 100000) :
    scores a b (ix2 r k) = Cert.Spec.scoreRow a b r k := by
  show Ideal.div (a (ix2 r k) + b (ix2 r k))
    (broadcastInDim S64x100000 ![] bcast_S_S64x100000 (constant (F := Ideal) S_ .f32 0x3F800000#32) (ix2 r k)) = _
  rw [Cert.Lib.splat_apply]
  rfl

/-- Removing the column axis of a 64-by-100000 matrix leaves a vector of 64. -/
theorem reduces_cols : S64x100000.Reduces [1] S64 := by decide

/-- The reference's result, as a term of its two argument arrays, is G. -/
theorem result_eq (a b : FVec Ideal S64x100000 .f32) :
    Host.divf (Host.exp (subf (Host.divf (addf a b) (broadcastInDim S64x100000 ![] bcast_S_S64x100000 (constant (F := Ideal) S_ .f32 0x3F800000#32))) (broadcastInDim S64x100000 ![0, 1] bcast_S64x1_S64x100000_0_1 (broadcastInDim S64x1 ![0] bcast_S64_S64x1_0 (maximumf (broadcastInDim S64 ![] bcast_S_S64 (constant (F := Ideal) S_ .f32 0xFF800000#32)) (Host.reduce FloatOps.maximumf (Host.divf (addf a b) (broadcastInDim S64x100000 ![] bcast_S_S64x100000 (constant (F := Ideal) S_ .f32 0x3F800000#32))) (constant (F := Ideal) S_ .f32 0xFF800000#32) reducesTo_S64x100000_S64_d1 h_S_)))))) (broadcastInDim S64x100000 ![0, 1] bcast_S64x1_S64x100000_0_1 (broadcastInDim S64x1 ![0] bcast_S64_S64x1_0 (Host.reduceAdd (Host.exp (subf (Host.divf (addf a b) (broadcastInDim S64x100000 ![] bcast_S_S64x100000 (constant (F := Ideal) S_ .f32 0x3F800000#32))) (broadcastInDim S64x100000 ![0, 1] bcast_S64x1_S64x100000_0_1 (broadcastInDim S64x1 ![0] bcast_S64_S64x1_0 (maximumf (broadcastInDim S64 ![] bcast_S_S64 (constant (F := Ideal) S_ .f32 0xFF800000#32)) (Host.reduce FloatOps.maximumf (Host.divf (addf a b) (broadcastInDim S64x100000 ![] bcast_S_S64x100000 (constant (F := Ideal) S_ .f32 0x3F800000#32))) (constant (F := Ideal) S_ .f32 0xFF800000#32) reducesTo_S64x100000_S64_d1 h_S_)))))) (constant (F := Ideal) S_ .f32 0x00000000#32) reducesTo_S64x100000_S64_d1 h_S_)))
      = Cert.Spec.G a b := by
  funext i
  obtain ⟨r, c, rfl⟩ : ∃ (r : Fin 64) (c : Fin 100000), i = ix2 r c := ⟨i 0, i 1, eq_ix2 i⟩
  refine (Cert.Lib.hostSoftmax_apply (R := 64) (C := 100000) (scores a b) reducesTo_S64x100000_S64_d1 reduces_cols h_S_
    bcast_S_S64 bcast_S64_S64x1_0 bcast_S64x1_S64x100000_0_1 r c).trans ?_
  show Cert.Lib.softmaxRow (fun k => scores a b (ix2 r k)) c = Cert.Lib.softmaxRow (Cert.Spec.scoreRow a b r) c
  exact congrArg (fun f => Cert.Lib.softmaxRow f c) (funext fun k => scores_apply a b r k)

/-- The reference runs: every weakly fair execution terminates with the result array at G of the two argument
    arrays, and the argument arrays unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (result_eq _ _), (h c).2⟩)
    (Cert.ReferenceIdeal.Value.run (F := Ideal) m ρ)

end Cert.RefValue

end
-- ==== Proof.Finite.lean ====
/-
  FROM THE PRECONDITION TO REAL ENTRIES.

  The precondition is the conjunction, over the two input matrices, of "every entry has absolute value below plus
  infinity". The absolute value of an extended real x is max(x, -x); it is plus infinity exactly when x is one of
  the two infinities, so an entry that passes the comparison is the image of a real number.
-/
import Idealize.ShloMosaic.PureOps.Ideal
import Idealize.ShloMosaic.Lib.ReduceAll
import Idealize.ShloMosaic.Lib.ValueIdx
import Idealize.ShloMosaic.Lib.IdealHost
import proofs.«177873_g1580547969666_cont_sun_c4_142_8_alg».proof.Pre_finite_inputs
import proofs.«177873_g1580547969666_cont_sun_c4_142_8_alg».proof.Proof.Gen.Pre_finite_inputs

noncomputable section

namespace Cert.Finite

open Idealize.ShloMosaic Idealize.ShloMosaic.ValueIdx
open Cert.Pre_finite_inputs

/-- A shape of rank zero has one index. -/
instance : Subsingleton S_.Idx := ⟨fun _ _ => funext fun d => d.elim0⟩

/-- The f32 word 0x7F800000 denotes plus infinity. -/
theorem posInf_eq : Ideal.ofBits .f32 0x7F800000#32 = ⊤ := by
  simp [Ideal.ofBits, Ideal.ieee]

/-- An extended real whose absolute value compares below plus infinity is a real number: at either infinity the
    absolute value is plus infinity, which is not below itself. -/
theorem real_of_abs_lt (x : EReal)
    (h : Ideal.cmp .olt (max x (-x)) (Ideal.ofBits .f32 0x7F800000#32) = 1#1) : ∃ r : ℝ, x = (r : EReal) := by
  rw [posInf_eq] at h
  induction x using EReal.rec with
  | bot => simp [Ideal.cmp] at h
  | coe r => exact ⟨r, rfl⟩
  | top => simp [Ideal.cmp] at h

/-- One conjunct of the precondition: if the reduce by "and", over both axes, of the comparison |x| < +inf is one,
    every entry of x is a real number. -/
theorem all_real (x : FVec Ideal S64x100000 .f32)
    (hb : S_.BroadcastsInDim S64x100000 (![] : Fin 0 → Fin S64x100000.rank))
    (hr : S64x100000.ReducesTo [0, 1] S_) (hS : 0 < S_.numel)
    (h : Host.reduce IntOp.andi
        (cmpf .olt (Host.absf x) (broadcastInDim S64x100000 ![] hb (constant (F := Ideal) S_ .f32 0x7F800000#32)))
        (constantI S_ 1 1#1) hr hS ix0 = 1#1) :
    ∀ i, ∃ r : ℝ, x i = (r : EReal) := by
  intro i
  have e := Host.reduce_andi_all _ _ hr hS ix0 h i
  have e' : Ideal.cmp .olt (max (x i) (-(x i)))
      (broadcastInDim S64x100000 ![] hb (constant (F := Ideal) S_ .f32 0x7F800000#32) i) = 1#1 := e
  rw [broadcastInDim_scalar_apply] at e'
  exact real_of_abs_lt (x i) e'

/-- The precondition of the certificate's claims gives: every entry of both inputs is a real number. -/
theorem real_of_pre [Cert.Pre_finite_inputs.Facts] (x y : FVec Ideal S64x100000 .f32)
    (h : Cert.Pre_finite_inputs.fn (F := Ideal) x y = (fun _ => 1#1)) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  exact ⟨all_real x _ _ _ hx, all_real y _ _ _ hy⟩

end Cert.Finite

end
-- ==== Proof.LibGcnAlgebra.lean ====
/-
  THE ALGEBRA OF ONE GRAPH-CONVOLUTION LAYER, OVER THE EXTENDED REALS.

  A layer aggregates the node features h over the edges that land on a node, with an edge weight w and a
  self-loop weight sn, and multiplies by a dense weight matrix W.  Aggregating first and multiplying afterwards
  gives the same number as multiplying first and aggregating afterwards: over the reals this is distributivity and
  an exchange of two finite sums.  Over the extended reals multiplication does not distribute over addition at
  the infinities, so the identity is proved for entries that are real numbers: every entry is replaced by the real
  number it is, both sides become the image of one real expression, and the identity is the real one.
-/
import Mathlib.Data.EReal.Operations
import Mathlib.Algebra.BigOperators.Ring.Finset
import Mathlib.Algebra.BigOperators.Group.Finset.Basic
import Mathlib.Algebra.BigOperators.Group.Finset.Sigma

noncomputable section

open scoped BigOperators

namespace Cert.Lib

/-! ### Extended reals that are real numbers -/

/-- An extended real is real when it is the image of a real number (neither of the two infinities). -/
def IsReal (x : EReal) : Prop := ∃ r : ℝ, x = (r : EReal)

namespace IsReal

/-- The image of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A sum of two reals is real. -/
theorem add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The opposite of a real is real. -/
theorem neg {x : EReal} (hx : IsReal x) : IsReal (-x) := by
  obtain ⟨a, rfl⟩ := hx
  exact ⟨-a, (EReal.coe_neg a).symm⟩

/-- A difference of two reals is real. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real: the embedding of the reals is monotone, so it commutes with max. -/
theorem max {x y : EReal} (hx : IsReal x) (hy : IsReal y) : IsReal (max x y) := by
  obtain ⟨a, rfl⟩ := hx
  obtain ⟨b, rfl⟩ := hy
  exact ⟨Max.max a b, (EReal.coe_strictMono.monotone.map_max (a := a) (b := b)).symm⟩

/-- The smaller of two reals is real. -/
theorem min {x y : EReal} (hx : IsReal x) (hy : IsReal y) : IsReal (min x y) := by
  obtain ⟨a, rfl⟩ := hx
  obtain ⟨b, rfl⟩ := hy
  exact ⟨Min.min a b, (EReal.coe_strictMono.monotone.map_min (a := a) (b := b)).symm⟩

/-- A choice between two reals is real. -/
theorem ite {p : Prop} [Decidable p] {x y : EReal} (hx : IsReal x) (hy : IsReal y) :
    IsReal (if p then x else y) := by
  split
  · exact hx
  · exact hy

/-- A finite sum of reals is real. -/
theorem sum {α : Type*} (s : Finset α) (f : α → EReal) (hf : ∀ a ∈ s, IsReal (f a)) :
    IsReal (∑ a ∈ s, f a) := by
  classical
  induction s using Finset.induction_on with
  | empty => simpa using zero
  | insert a s ha ih =>
    rw [Finset.sum_insert ha]
    exact add (hf a (Finset.mem_insert_self a s))
      (ih fun b hb => hf b (Finset.mem_insert_of_mem hb))

/-- A sum of reals over a whole finite type is real. -/
theorem sum_univ {α : Type*} [Fintype α] (f : α → EReal) (hf : ∀ a, IsReal (f a)) :
    IsReal (∑ a, f a) :=
  sum Finset.univ f fun a _ => hf a

/-- A real is not plus infinity. -/
theorem ne_top {x : EReal} (hx : IsReal x) : x ≠ ⊤ := by
  obtain ⟨a, rfl⟩ := hx
  exact EReal.coe_ne_top a

/-- A real is not minus infinity. -/
theorem ne_bot {x : EReal} (hx : IsReal x) : x ≠ ⊥ := by
  obtain ⟨a, rfl⟩ := hx
  exact EReal.coe_ne_bot a

/-- An extended real that is neither infinity is real. -/
theorem of_ne {x : EReal} (hb : x ≠ ⊥) (ht : x ≠ ⊤) : IsReal x := by
  induction x using EReal.rec with
  | bot => exact absurd rfl hb
  | coe r => exact ⟨r, rfl⟩
  | top => exact absurd rfl ht

/-- Being real is being neither infinity. -/
theorem iff_ne {x : EReal} : IsReal x ↔ x ≠ ⊥ ∧ x ≠ ⊤ :=
  ⟨fun h => ⟨h.ne_bot, h.ne_top⟩, fun h => of_ne h.1 h.2⟩

end IsReal

/-! ### The embedding of the reals commutes with finite sums and with choices -/

/-- The image of a finite sum of real numbers is the sum of the images. -/
@[norm_cast]
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The image of a choice between two real numbers is the choice between the images. -/
@[norm_cast]
theorem coe_ite (p : Prop) [Decidable p] (a b : ℝ) :
    ((if p then a else b : ℝ) : EReal) = if p then (a : EReal) else (b : EReal) := by
  split <;> rfl

/-- The image of a choice between a real number and zero. -/
theorem coe_ite_zero (p : Prop) [Decidable p] (a : ℝ) :
    ((if p then a else 0 : ℝ) : EReal) = if p then (a : EReal) else 0 := by
  split <;> rfl

/-! ### One layer, over the reals -/

section Real

variable {ι ε κ φ : Type*} [Fintype ε] [Fintype κ]

/-- Aggregate-then-transform equals transform-then-aggregate, over the reals.  The left side multiplies the
aggregated features (edge term plus self-loop term) by the weight matrix; the right side aggregates the already
multiplied features.  Both are the double sum over edges and feature coordinates plus the self-loop sum. -/
theorem gcn_layer_swap_real (h : ι → κ → ℝ) (W : κ → φ → ℝ) (g : ε → ι) (hit : ε → ι → Prop)
    [∀ e i, Decidable (hit e i)] (w : ε → ℝ) (sn : ι → ℝ) (i : ι) (f : φ) :
    ∑ k, ((0 + ∑ e, if hit e i then h (g e) k * w e else 0) + sn i * h i k) * W k f
      = 0 + ((∑ e, if hit e i then (∑ k, h (g e) k * W k f) * w e else 0)
          + (∑ k, h i k * W k f) * sn i) := by
  simp only [zero_add, add_mul, Finset.sum_add_distrib, Finset.sum_mul]
  congr 1
  · rw [Finset.sum_comm]
    refine Finset.sum_congr rfl fun e _ => ?_
    by_cases hc : hit e i
    · simp only [hc, if_true]
      refine Finset.sum_congr rfl fun k _ => ?_
      ring
    · simp only [hc, if_false, zero_mul, Finset.sum_const_zero]
  · refine Finset.sum_congr rfl fun k _ => ?_
    ring

end Real

/-! ### One layer, over the extended reals -/

section Ext

variable {ι ε κ φ : Type*} [Fintype ε] [Fintype κ]

/-- Aggregate-then-transform equals transform-then-aggregate, over the extended reals, when every entry of the
features, of the weight matrix, of the edge weights and of the self-loop weights is a real number.  Every entry
is replaced by the real number it is; then both sides are the image of the two sides of the real identity. -/
theorem gcn_layer_swap (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    ∑ k, ((0 + ∑ e, if hit e i then h (g e) k * w e else 0) + sn i * h i k) * W k f
      = 0 + ((∑ e, if hit e i then (∑ k, h (g e) k * W k f) * w e else 0)
          + (∑ k, h i k * W k f) * sn i) := by
  choose h' hh' using hh
  choose W' hW' using hW
  choose w' hw' using hw
  choose sn' hsn' using hsn
  obtain rfl : h = fun i k => (h' i k : EReal) := funext fun i => funext fun k => hh' i k
  obtain rfl : W = fun k f => (W' k f : EReal) := funext fun k => funext fun f => hW' k f
  obtain rfl : w = fun e => (w' e : EReal) := funext hw'
  obtain rfl : sn = fun i => (sn' i : EReal) := funext hsn'
  have key := congrArg Real.toEReal (gcn_layer_swap_real h' W' g hit w' sn' i f)
  simp only [EReal.coe_add, EReal.coe_mul, EReal.coe_zero, coe_finset_sum, coe_ite_zero] at key
  exact key

/-- The aggregate-then-transform side is real when every entry is. -/
theorem isReal_gcn_kernel_side (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    IsReal (∑ k, ((0 + ∑ e, if hit e i then h (g e) k * w e else 0) + sn i * h i k) * W k f) :=
  IsReal.sum_univ _ fun k =>
    (((IsReal.zero.add (IsReal.sum_univ _ fun e => IsReal.ite ((hh (g e) k).mul (hw e)) IsReal.zero)).add
      ((hsn i).mul (hh i k))).mul (hW k f))

/-- The transform-then-aggregate side is real when every entry is. -/
theorem isReal_gcn_reference_side (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    IsReal (0 + ((∑ e, if hit e i then (∑ k, h (g e) k * W k f) * w e else 0)
      + (∑ k, h i k * W k f) * sn i)) :=
  IsReal.zero.add
    ((IsReal.sum_univ _ fun e =>
        IsReal.ite ((IsReal.sum_univ _ fun k => (hh (g e) k).mul (hW k f)).mul (hw e)) IsReal.zero).add
      ((IsReal.sum_univ _ fun k => (hh i k).mul (hW k f)).mul (hsn i)))

end Ext

/-- Adding a real bias to a real number and clamping below at zero gives a real number. -/
theorem isReal_max_add_zero {X b : EReal} (hX : IsReal X) (hb : IsReal b) : IsReal (max (X + b) 0) :=
  (hX.add hb).max IsReal.zero

end Cert.Lib
-- ==== Proof.Algebra.lean ====
/-
  THE SHIFT BY THE ROW MAXIMUM CANCELS IN A SOFTMAX OF REAL NUMBERS.

  For a row x of n real numbers (n > 0) let m be the row's maximum and S = sum_k exp(x_k). Since
  exp(x_k - m) = exp(x_k) * exp(-m) for every k, the shifted sum is S * exp(-m), and

      exp(x_d - m) / (S * exp(-m)) = exp(x_d) * (1 / S),

  the positive real factor exp(-m) cancelling. Over the extended reals the row's entries, its maximum, every
  exponential and both sums are images of real numbers, so the identity is the image of the real one. The number
  one is spelled by its f32 word, and multiplying or dividing by it changes nothing.
-/
import Idealize.ShloMosaic.PureOps.Ideal
import Idealize.ShloMosaic.Lib.IdealHost
import proofs.«177873_g1580547969666_cont_sun_c4_142_8_alg».proof.Proof.Spec
import proofs.«177873_g1580547969666_cont_sun_c4_142_8_alg».proof.Proof.LibSoftmaxRows
import proofs.«177873_g1580547969666_cont_sun_c4_142_8_alg».proof.Proof.LibGcnAlgebra

noncomputable section

open scoped BigOperators

namespace Cert.Algebra

open Idealize.ShloMosaic

/-- The f32 word 0x3F800000 denotes the number one. -/
theorem one_eq : Cert.Spec.one = 1 := Ideal.ofBits_one_f32

/-- The f32 word 0xFF800000 denotes minus infinity. -/
theorem negInf_eq : Ideal.ofBits .f32 0xFF800000#32 = ⊥ := by
  simp [Ideal.ofBits, Ideal.ieee]

/-- Dividing by one changes nothing. -/
theorem div_one (x : EReal) : Ideal.div x 1 = x := by
  have h := Ideal.div_coe (y := (1 : ℝ)) one_ne_zero x
  rw [EReal.coe_one] at h
  rw [h, one_div, inv_one, EReal.coe_one, mul_one]

/-- The maximum of a nonempty row of real numbers, taken from minus infinity, is a real number: it is at least
    the entry d, which is above minus infinity, and every entry is below plus infinity. -/
theorem rowMax_real {n : ℕ} (y : Fin n → ℝ) (d : Fin n) :
    ∃ m : ℝ, Cert.Lib.rowMax (fun k => (y k : EReal)) = (m : EReal) := by
  unfold Cert.Lib.rowMax
  rw [negInf_eq, bot_sup_eq]
  have hs : (Finset.univ : Finset (Fin n)).fold max (⊥ : EReal) (fun k => (y k : EReal))
      = (Finset.univ : Finset (Fin n)).sup (fun k => (y k : EReal)) := rfl
  rw [hs]
  have hb : (Finset.univ : Finset (Fin n)).sup (fun k => (y k : EReal)) ≠ ⊥ := by
    intro e
    have hle : (y d : EReal) ≤ (Finset.univ : Finset (Fin n)).sup (fun k => (y k : EReal)) :=
      Finset.le_sup (f := fun k => (y k : EReal)) (Finset.mem_univ d)
    rw [e] at hle
    exact EReal.coe_ne_bot (y d) (le_bot_iff.mp hle)
  have ht : (Finset.univ : Finset (Fin n)).sup (fun k => (y k : EReal)) ≠ ⊤ :=
    ((Finset.sup_lt_iff (bot_lt_top)).mpr fun k _ => EReal.coe_lt_top (y k)).ne
  exact Cert.Lib.IsReal.of_ne hb ht

/-- The real identity: the factor exp(-m) cancels between the shifted exponential and the shifted sum. -/
theorem softmax_unshifted_real {n : ℕ} (y : Fin n → ℝ) (m : ℝ) (d : Fin n) :
    Real.exp (y d) * (1 / ∑ k : Fin n, Real.exp (y k))
      = Real.exp (y d - m) * (1 / ∑ k : Fin n, Real.exp (y k - m)) := by
  have hS : 0 < ∑ k : Fin n, Real.exp (y k) :=
    Finset.sum_pos (fun k _ => Real.exp_pos (y k)) ⟨d, Finset.mem_univ d⟩
  have hE : 0 < Real.exp (-m) := Real.exp_pos (-m)
  have hsum : ∑ k : Fin n, Real.exp (y k - m) = (∑ k : Fin n, Real.exp (y k)) * Real.exp (-m) := by
    rw [Finset.sum_mul]
    exact Finset.sum_congr rfl fun k _ => by rw [sub_eq_add_neg, Real.exp_add]
  rw [hsum, sub_eq_add_neg, Real.exp_add]
  field_simp

/-- The unshifted softmax, with the division by the row sum written as a product with its reciprocal, is the
    softmax shifted by the row maximum, for a row of real numbers. -/
theorem softmax_unshifted {n : ℕ} (x : Fin n → EReal) (hx : ∀ k, ∃ y : ℝ, x k = (y : EReal)) (d : Fin n) :
    Ideal.exp (x d * Cert.Spec.one) * Ideal.div Cert.Spec.one (∑ k : Fin n, Ideal.exp (x k * Cert.Spec.one))
      = Cert.Lib.softmaxRow (fun k => Ideal.div (x k) Cert.Spec.one) d := by
  choose y hy using hx
  obtain rfl : x = fun k => (y k : EReal) := funext hy
  rw [one_eq]
  simp only [div_one, mul_one]
  obtain ⟨m, hm⟩ := rowMax_real y d
  unfold Cert.Lib.softmaxRow
  rw [hm]
  have hS : 0 < ∑ k : Fin n, Real.exp (y k) :=
    Finset.sum_pos (fun k _ => Real.exp_pos (y k)) ⟨d, Finset.mem_univ d⟩
  have hS' : 0 < ∑ k : Fin n, Real.exp (y k - m) :=
    Finset.sum_pos (fun k _ => Real.exp_pos (y k - m)) ⟨d, Finset.mem_univ d⟩
  simp only [← EReal.coe_sub, Ideal.exp_coe, ← Cert.Lib.coe_finset_sum]
  rw [Ideal.div_coe hS.ne', Ideal.div_coe hS'.ne', one_mul, ← EReal.coe_mul, ← EReal.coe_mul]
  exact congrArg Real.toEReal (softmax_unshifted_real y m d)

/-- The two forms agree on matrices of real numbers. -/
theorem K_eq_G (a b : Cert.Spec.M.Idx → EReal) (ha : ∀ i, ∃ y : ℝ, a i = (y : EReal))
    (hb : ∀ i, ∃ y : ℝ, b i = (y : EReal)) : Cert.Spec.K a b = Cert.Spec.G a b := by
  funext i
  exact softmax_unshifted (Cert.Spec.sumRow a b (i 0)) (fun k => Cert.Lib.IsReal.add (ha _) (hb _)) (i 1)

end Cert.Algebra

end
-- ==== Proof.lean ====
/-
  TWO PROGRAMS FOR A ROW SOFTMAX OF A SUM COMPUTE THE SAME EXTENDED REALS.

  Both take two 64-by-100000 matrices a and b of finite numbers and return, row by row, the softmax of a + b. The
  kernel forms exp((a + b) * 1) and multiplies it by the reciprocal of its row sum; the reference divides a + b by 1,
  subtracts the row maximum before the exponential, and divides by the shifted row sum. For real entries the shift
  changes nothing: exp(s - m) = exp(s) * exp(-m), and the positive factor exp(-m) cancels between the numerator and
  the row sum. Finiteness of the inputs is what makes every sum, maximum and exponential here a real number; at an
  infinite entry the two forms differ, and the precondition excludes it.

  The kernel's run (it terminates, faults nowhere, leaves its arguments as they were, and its result array ends at
  the unshifted form K of the arguments) is proved for both readings of the kernel, word level and ideal; the
  reference's run ends at the shifted form G; K = G on real matrices. The idealization rewrote nothing, so there is
  nothing to preserve beyond the program text itself.
-/
import proofs.«177873_g1580547969666_cont_sun_c4_142_8_alg».proof.Defs
import proofs.«177873_g1580547969666_cont_sun_c4_142_8_alg».proof.Proof.Gen.Kernel
import proofs.«177873_g1580547969666_cont_sun_c4_142_8_alg».proof.Proof.Gen.KernelIdeal
import proofs.«177873_g1580547969666_cont_sun_c4_142_8_alg».proof.Proof.Gen.ReferenceIdeal
import proofs.«177873_g1580547969666_cont_sun_c4_142_8_alg».proof.Proof.Gen.Pre_finite_inputs
import proofs.«177873_g1580547969666_cont_sun_c4_142_8_alg».proof.Proof.Gen.ReferenceIdeal.Run
import proofs.«177873_g1580547969666_cont_sun_c4_142_8_alg».proof.Proof.KLaunch
import proofs.«177873_g1580547969666_cont_sun_c4_142_8_alg».proof.Proof.KIValue
import proofs.«177873_g1580547969666_cont_sun_c4_142_8_alg».proof.Proof.RefValue
import proofs.«177873_g1580547969666_cont_sun_c4_142_8_alg».proof.Proof.Finite
import proofs.«177873_g1580547969666_cont_sun_c4_142_8_alg».proof.Proof.Algebra
import Idealize.ShloMosaic.Adequacy
import Idealize.ShloMosaic.Init

noncomputable section

namespace Cert.Proof

open Idealize.ShloMosaic Idealize.SL.Sem

/-- The word-level kernel runs to the end, nothing faulting, its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefValue.run_G m ρ)

/-- From memories agreeing on the arguments the kernel ends at K of them and the reference at G of them; the inputs
    being finite, every entry is a real number, and on real matrices K = G. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.Spec.K (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_K m g, ?_⟩
  refine (θ_run (Cert.ReferenceIdeal.defs (F := Ideal)) _ _).mono (fun _ h c => ⟨(h c).1.trans ?_, (h c).2⟩)
    (Cert.RefValue.run_G m' g')
  rw [(hagree c).1, (hagree c).2]
  obtain ⟨ha, hb⟩ := Cert.Finite.real_of_pre _ _ (hpre c)
  exact (Cert.Algebra.K_eq_G _ _ ha hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
